-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S524288x128 .f32) (main_arg1 : FVec F S524288x128 .f32) (main_arg2 : FVec F S128x128 .f32) (main_arg3 : FVec F S128x128 .f32) (main_arg4 : FVec F S128x128 .f32) (main_arg5 : FVec F S128x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S524288x128 : Shape := ⟨2, ![524288, 128]⟩
abbrev S128x128 : Shape := ⟨2, ![128, 128]⟩
abbrev S256x128 : Shape := ⟨2, ![256, 128]⟩
abbrev S8192x128 : Shape := ⟨2, ![8192, 128]⟩
abbrev S8192x256 : Shape := ⟨2, ![8192, 256]⟩

abbrev nBuf : Space → Nat
  | .hbm => 13
  | .vmem => 7
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S256x128, .bf16⟩
  | .hbm, ⟨12, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S256x128, .bf16⟩
  | .local _ .vmem, ⟨5, _⟩ => ⟨S8192x128, .f32⟩
  | .local _ .vmem, ⟨6, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  concatenates_S128x128_S128x128_S256x128_d0 : Shape.Concatenates [S128x128, S128x128] S256x128 0
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  concatenates_S8192x128_S8192x128_S8192x256_d1 : Shape.Concatenates [S8192x128, S8192x128] S8192x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩

abbrev nBuf : Space → Nat
  | .hbm => 11
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S524288x128, .f32⟩
  | .hbm, ⟨8, _⟩ => ⟨S128x128, .f32⟩
  | .hbm, ⟨9, _⟩ => ⟨S524288x128, .f32⟩
  | .hbm, ⟨10, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.Spec.lean ====
/-
  The function both programs compute.

  The inputs are two batches of rows `x0, x1 : [524288, 128]` and, for each batch, a weight matrix and a 0/1
  connectivity mask, `w0, m0, w1, m1 : [128, 128]`, stored output-major (row `o` holds the weights into output
  `o`). The result at batch row `b`, output `o` is

      ∑ i < 128, x0[b, i] · (w0[o, i] · m0[o, i])  +  ∑ i < 128, x1[b, i] · (w1[o, i] · m1[o, i]),

  the sum of the two masked linear maps, read on the extended reals.
-/
import Idealize.ShloMosaic.Lib.ValueIdx
import Idealize.ShloMosaic.PureOps.Ideal

noncomputable section

open scoped BigOperators

namespace Cert.MaskedPair

open Idealize.ShloMosaic Idealize.ShloMosaic.ValueIdx

/-- The shape of a batch of rows, and of the result. -/
abbrev Rows : Shape := ⟨2, ![524288, 128]⟩
/-- The shape of a weight matrix and of a mask. -/
abbrev Sq : Shape := ⟨2, ![128, 128]⟩

/-- One masked linear map at batch row `b`, output `o`: row `b` of `x` against row `o` of `w · m`. -/
def maskedRow (x : FVec Ideal Rows .f32) (w m : FVec Ideal Sq .f32) (b : Fin 524288) (o : Fin 128) : EReal :=
  ∑ i : Fin 128, x (ix2 b i) * (w (ix2 o i) * m (ix2 o i))

/-- The sum of the two masked linear maps, index by index. -/
def maskedSum (x0 x1 : FVec Ideal Rows .f32) (w0 w1 m0 m1 : FVec Ideal Sq .f32) : FVec Ideal Rows .f32 :=
  fun j => maskedRow x0 w0 m0 (j 0) (j 1) + maskedRow x1 w1 m1 (j 0) (j 1)

theorem maskedSum_apply (x0 x1 : FVec Ideal Rows .f32) (w0 w1 m0 m1 : FVec Ideal Sq .f32) (b : Fin 524288) (o : Fin 128) :
    maskedSum x0 x1 w0 w1 m0 m1 (ix2 b o) = maskedRow x0 w0 m0 b o + maskedRow x1 w1 m1 b o := rfl

end Cert.MaskedPair

end
-- ==== Proof.RefSide.lean ====
/-
  The reference computes the sum of the two masked linear maps.

  The reference multiplies each weight matrix by its mask entry by entry, contracts each batch of rows with the
  masked weights over the 128 input positions (both operands contracted on their last axis, so the weight is read
  output-major), and adds the two products. Read at batch row `b`, output `o`, that is
  `∑ i, x0[b, i] · (w0[o, i] · m0[o, i]) + ∑ i, x1[b, i] · (w1[o, i] · m1[o, i])`: the specification.
-/
import proofs.«132535_j87041807221059_2_alg».proof.Proof.Gen.ReferenceIdeal.Read
import proofs.«132535_j87041807221059_2_alg».proof.Proof.Spec

noncomputable section

open scoped BigOperators

namespace Cert.ReferenceIdeal.RefValue

open Cert.ReferenceIdeal Cert.ReferenceIdeal.Read Idealize.ShloMosaic Idealize.ShloMosaic.ValueIdx Cert.MaskedPair

/-- The first product reads the batch at `(b, k)` … -/
theorem lidx1_eq (i : S524288x128.Idx) (k : Fin 128) : lidx_main_v1 i k = ix2 (i 0) k :=
  funext fun a => Fin.ext (by match a with | ⟨0, _⟩ => rfl | ⟨1, _⟩ => rfl)
/-- … and the masked weight at `(o, k)`. -/
theorem ridx1_eq (i : S524288x128.Idx) (k : Fin 128) : ridx_main_v1 i k = ix2 (i 1) k :=
  funext fun a => Fin.ext (by match a with | ⟨0, _⟩ => rfl | ⟨1, _⟩ => rfl)
/-- The second product likewise. -/
theorem lidx3_eq (i : S524288x128.Idx) (k : Fin 128) : lidx_main_v3 i k = ix2 (i 0) k :=
  funext fun a => Fin.ext (by match a with | ⟨0, _⟩ => rfl | ⟨1, _⟩ => rfl)
theorem ridx3_eq (i : S524288x128.Idx) (k : Fin 128) : ridx_main_v3 i k = ix2 (i 1) k :=
  funext fun a => Fin.ext (by match a with | ⟨0, _⟩ => rfl | ⟨1, _⟩ => rfl)

/-- The reference's result, as a function of its six arguments, is the specification. -/
theorem ref_eq (x0 x1 : FVec Ideal Rows .f32) (w0 w1 m0 m1 : FVec Ideal Sq .f32) :
    val_main_v4 (F := Ideal) x0 x1 w0 w1 m0 m1 = maskedSum x0 x1 w0 w1 m0 m1 := by
  funext i
  rw [val_main_v4_apply, val_main_v1_apply, val_main_v3_apply]
  simp only [val_main_v0_apply, val_main_v2_apply, lidx1_eq, ridx1_eq, lidx3_eq, ridx3_eq, Ideal.addf_def, Ideal.mulf_def]
  rfl

end Cert.ReferenceIdeal.RefValue

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.LibSplitDot.lean ====
/-
  A matrix product whose left operand is two blocks side by side.

  Let the left operand of an `M × K` by `K × N` product be the concatenation, along the columns, of an `M × K₁`
  block and an `M × K₂` block, `K₁ + K₂ = K`. Column `k` of the concatenation is column `k` of the first block
  for `k < K₁` and column `k - K₁` of the second block otherwise, so the sum over the `K` contraction positions
  splits at `K₁`: the entry at row `p`, column `q` of a `tpu.matmul` into the zero accumulator is, at the ideal
  values, the first block's row `p` against the top `K₁` rows of the right operand plus the second block's row `p`
  against its bottom `K₂` rows. Only the regrouping of a finite sum is used, which holds on the extended reals
  without any finiteness assumption.
-/
import proofs.«132535_j87041807221059_2_alg».proof.Proof.LibPlainDot
import proofs.«132535_j87041807221059_2_alg».proof.Proof.LibConcatRead

noncomputable section

open scoped BigOperators

namespace Cert.Lib.SplitDot

open Idealize.ShloMosaic Idealize.ShloMosaic.ValueIdx

/-- A `tpu.matmul` into the zero accumulator whose left operand is `[l₁ | l₂]`, at entry `(p, q)`:
    `∑ k < K₁, l₁[p, k] · r[k, q] + ∑ k < K₂, l₂[p, k] · r[K₁ + k, q]`. -/
theorem matmul_zero_cols_apply {M K₁ K₂ K N : Nat} (hK : K₁ + K₂ = K) {φ₁ φ₂ : FTy}
    (prec : Option ContractPrecision)
    (l₁ : FVec Ideal ⟨2, ![M, K₁]⟩ φ₁) (l₂ : FVec Ideal ⟨2, ![M, K₂]⟩ φ₁) (r : FVec Ideal ⟨2, ![K, N]⟩ φ₂)
    (h : Shape.Concatenates [⟨2, ![M, K₁]⟩, ⟨2, ![M, K₂]⟩] ⟨2, ![M, K]⟩ 1) (p : Fin M) (q : Fin N) :
    FloatOps.matmul (DotDims.plain M K N) prec
        (concatenate ⟨2, ![M, K]⟩ 1 [⟨⟨2, ![M, K₁]⟩, l₁⟩, ⟨⟨2, ![M, K₂]⟩, l₂⟩] h) r
        (constant ⟨2, ![M, N]⟩ .f32 0x00000000#32) (ix2 p q)
      = (∑ k : Fin K₁, l₁ (ix2 p k) * r (ix2 (⟨k.val, by omega⟩ : Fin K) q))
        + ∑ k : Fin K₂, l₂ (ix2 p k) * r (ix2 (⟨K₁ + k.val, by omega⟩ : Fin K) q) := by
  subst hK
  rw [Cert.Lib.PlainDot.matmul_zero_apply, Fin.sum_univ_add]
  congr 1
  · refine Finset.sum_congr rfl fun k _ => ?_
    rw [Cert.Lib.ConcatRead.cols_left l₁ l₂ h p (Fin.castAdd K₂ k) k rfl]
    rfl
  · refine Finset.sum_congr rfl fun k _ => ?_
    rw [Cert.Lib.ConcatRead.cols_right l₁ l₂ h p (Fin.natAdd K₁ k) k (Nat.add_comm _ _)]
    rfl

end Cert.Lib.SplitDot

end
-- ==== Proof.Body.lean ====
/-
  The kernel body's one stored value, read at an entry.

  At a grid point the body loads a block `a` of `x0` and a block `b` of `x1` (8192 rows of 128 lanes each),
  narrows both to bf16 (the identity on ideal values), sets them side by side as one 8192 × 256 operand
  `[a | b]`, and multiplies it into the zero accumulator with the resident 256 × 128 weight `W`. So the stored
  entry at row `p`, lane `q` is

      ∑ k < 128, a[p, k] · W[k, q]  +  ∑ k < 128, b[p, k] · W[128 + k, q] :

  the contraction over 256 positions split at 128, the first half meeting `a`, the second half `b`.
-/
import proofs.«132535_j87041807221059_2_alg».proof.Proof.Gen.KernelIdeal.Skeleton
import proofs.«132535_j87041807221059_2_alg».proof.Proof.LibSplitDot
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The body's dimension numbers are those of a plain `8192 × 256` by `256 × 128` product. -/
theorem dims_plain : dot_S8192x256_S256x128_S8192x128_1_0_0_1_n_n = DotDims.plain 8192 256 128 := rfl

/-- The stored value at row `p`, lane `q`, from the two loaded blocks and the loaded weight. -/
theorem pay_entry (a b : FVec Ideal S8192x128 .f32) (W : FVec Ideal S256x128 .bf16) (p : Fin 8192) (q : Fin 128) :
    k0_pay1 (F := Ideal) a b W (ix2 p q)
      = (∑ k : Fin 128, a (ix2 p k) * W (ix2 (⟨k.val, by omega⟩ : Fin 256) q))
        + ∑ k : Fin 128, b (ix2 p k) * W (ix2 (⟨128 + k.val, by omega⟩ : Fin 256) q) := by
  have hW : shapeCast S256x128 W shapeCasts_S256x128_S256x128 = W := shapeCast_self W _
  show matmul dot_S8192x256_S256x128_S8192x128_1_0_0_1_n_n none
      (concatenate S8192x256 1 [⟨S8192x128, truncf .bf16 a bitsLt_bf16_f32⟩, ⟨S8192x128, truncf .bf16 b bitsLt_bf16_f32⟩]
        concatenates_S8192x128_S8192x128_S8192x256_d1)
      (shapeCast S256x128 W shapeCasts_S256x128_S256x128) (constant S8192x128 .f32 0x00000000#32) (ix2 p q) = _
  rw [hW, dims_plain]
  exact Cert.Lib.SplitDot.matmul_zero_cols_apply (M := 8192) (K₁ := 128) (K₂ := 128) (K := 256) (N := 128) rfl none
    (truncf .bf16 a bitsLt_bf16_f32) (truncf .bf16 b bitsLt_bf16_f32) W concatenates_S8192x128_S8192x128_S8192x256_d1 p q

end Cert.KernelIdeal.Body

end
-- ==== Proof.Weights.lean ====
/-
  The weight the region finds resident.

  Before the region the program multiplies each weight matrix by its mask, transposes each product (so that the
  contraction axis comes first), stacks the two transposed products along the rows into one `256 × 128` matrix, and
  narrows it to bf16 (the identity on ideal values). Read at row `k`, column `q`, the stacked matrix is
  `w0[q, k] · m0[q, k]` for `k < 128`, and `w1[q, k - 128] · m1[q, k - 128]` for `128 ≤ k`.
-/
import proofs.«132535_j87041807221059_2_alg».proof.Proof.Gen.KernelIdeal.Frame
import proofs.«132535_j87041807221059_2_alg».proof.Proof.LibConcatRead
import Idealize.ShloMosaic.Lib.ValueLayout
import Idealize.ShloMosaic.Lib.StableHlo.Run

noncomputable section

namespace Cert.KernelIdeal.Weights

open Cert.KernelIdeal Cert.KernelIdeal.Gen Idealize.ShloMosaic Idealize.ShloMosaic.TcCoe Idealize.ShloMosaic.ValueIdx
open Idealize.SL.Sem

/-- The stacked, transposed, masked weight as a function of the two weight matrices and the two masks. -/
def stacked (w0 w1 m0 m1 : FVec Ideal S128x128 .f32) : FVec Ideal S256x128 .bf16 :=
  truncf .bf16
    (concatenate S256x128 0
      [⟨S128x128, transpose S128x128 [1, 0] (mulf w0 m0) transposes_S128x128_S128x128_1_0⟩,
       ⟨S128x128, transpose S128x128 [1, 0] (mulf w1 m1) transposes_S128x128_S128x128_1_0⟩]
      concatenates_S128x128_S128x128_S256x128_d0)
    bitsLt_bf16_f32

/-- A row of the top half: the first masked weight, transposed. -/
theorem stacked_top (w0 w1 m0 m1 : FVec Ideal S128x128 .f32) (k q : Fin 128) :
    stacked w0 w1 m0 m1 (ix2 (⟨k.val, by omega⟩ : Fin 256) q) = w0 (ix2 q k) * m0 (ix2 q k) := by
  show concatenate S256x128 0
      [⟨S128x128, transpose S128x128 [1, 0] (mulf w0 m0) transposes_S128x128_S128x128_1_0⟩,
       ⟨S128x128, transpose S128x128 [1, 0] (mulf w1 m1) transposes_S128x128_S128x128_1_0⟩]
      concatenates_S128x128_S128x128_S256x128_d0 (ix2 (⟨k.val, by omega⟩ : Fin 256) q) = _
  rw [Cert.Lib.ConcatRead.rows_left _ _ _ (⟨k.val, by omega⟩ : Fin 256) q k rfl, transpose_ix2_apply]
  rfl

/-- A row of the bottom half: the second masked weight, transposed. -/
theorem stacked_bottom (w0 w1 m0 m1 : FVec Ideal S128x128 .f32) (k q : Fin 128) :
    stacked w0 w1 m0 m1 (ix2 (⟨128 + k.val, by omega⟩ : Fin 256) q) = w1 (ix2 q k) * m1 (ix2 q k) := by
  show concatenate S256x128 0
      [⟨S128x128, transpose S128x128 [1, 0] (mulf w0 m0) transposes_S128x128_S128x128_1_0⟩,
       ⟨S128x128, transpose S128x128 [1, 0] (mulf w1 m1) transposes_S128x128_S128x128_1_0⟩]
      concatenates_S128x128_S128x128_S256x128_d0 (ix2 (⟨128 + k.val, by omega⟩ : Fin 256) q) = _
  rw [Cert.Lib.ConcatRead.rows_right _ _ _ (⟨128 + k.val, by omega⟩ : Fin 256) q k (Nat.add_comm _ _), transpose_ix2_apply]
  rfl

/-- When the region is entered the weight window's array holds the stacked matrix of the launch contents of the two
    weight matrices and the two masks. -/
theorem V_weight (m : (ℓ : Loc nD τ sig) → Buf (Elt Ideal) ℓ) (c : Dev nD) :
    (V m c main_call0_v5 : S256x128.Idx → EReal)
      = stacked (m ((c : Thread nD τ).loc main_arg2)) (m ((c : Thread nD τ).loc main_arg3))
          (m ((c : Thread nD τ).loc main_arg4)) (m ((c : Thread nD τ).loc main_arg5)) := by
  dsimp only [Gen.V, Gen.hostOps0]
  after_results
  rfl

end Cert.KernelIdeal.Weights

end
-- ==== Proof.Whole.lean ====
/-
  The kernel's result array as one function of its arguments.

  The grid has 64 points; point `t` works on rows `8192·t … 8192·t + 8191` of both batches and of the result,
  and every point sees the whole 256 × 128 weight. With `a`, `b` the point's blocks of `x0`, `x1` and `W` the
  weight, the body stores at row `p`, lane `q` of its block
  `∑ k, a[p, k] · W[k, q] + ∑ k, b[p, k] · W[128 + k, q]`; row `p` of block `t` is row `8192·t + p` of the
  array, so every point writes its block of ONE function of the whole arrays (`againstWeight`), and the 64 blocks
  tile the result (row `r` lies in block `r / 8192`). Substituting what the weight holds when the region is
  entered — the stacked, transposed, masked weights — turns that function into the specification.
-/
import proofs.«132535_j87041807221059_2_alg».proof.Proof.Gen.KernelIdeal.Value
import proofs.«132535_j87041807221059_2_alg».proof.Proof.Body
import proofs.«132535_j87041807221059_2_alg».proof.Proof.Weights
import proofs.«132535_j87041807221059_2_alg».proof.Proof.Spec

noncomputable section

open scoped BigOperators

namespace Cert.KernelIdeal.Whole

open Cert.KernelIdeal Cert.KernelIdeal.Gen Cert.KernelIdeal.Value Idealize.ShloMosaic Idealize.ShloMosaic.TcCoe
open Idealize.SL.Sem Idealize.ShloMosaic.ValueIdx Cert.MaskedPair
open Idealize.ShloMosaic.Pipeline (Dat)

/-! ## One function of the whole arrays -/

/-- Row `r` of the two batches against column `q` of a `256 × 128` weight: the first batch meets the weight's top
    128 rows, the second its bottom 128 rows. -/
def entry (x0 x1 : FVec Ideal S524288x128 .f32) (W : FVec Ideal S256x128 .bf16) (r : Fin 524288) (q : Fin 128) : EReal :=
  (∑ k : Fin 128, x0 (ix2 r k) * W (ix2 (⟨k.val, by omega⟩ : Fin 256) q))
    + ∑ k : Fin 128, x1 (ix2 r k) * W (ix2 (⟨128 + k.val, by omega⟩ : Fin 256) q)

/-- The result array the kernel computes from the two batches and the resident weight. -/
def againstWeight (x0 x1 : FVec Ideal S524288x128 .f32) (W : FVec Ideal S256x128 .bf16) : FVec Ideal S524288x128 .f32 :=
  fun j => entry x0 x1 W (j 0) (j 1)

/-- With the weight the stacked, transposed, masked weights, an entry is the sum of the two masked linear maps. -/
theorem entry_stacked (x0 x1 : FVec Ideal S524288x128 .f32) (w0 w1 m0 m1 : FVec Ideal S128x128 .f32) (r : Fin 524288) (q : Fin 128) :
    entry x0 x1 (Weights.stacked w0 w1 m0 m1) r q = maskedRow x0 w0 m0 r q + maskedRow x1 w1 m1 r q := by
  unfold entry maskedRow
  simp only [Weights.stacked_top, Weights.stacked_bottom]

theorem againstWeight_stacked (x0 x1 : FVec Ideal S524288x128 .f32) (w0 w1 m0 m1 : FVec Ideal S128x128 .f32) :
    againstWeight x0 x1 (Weights.stacked w0 w1 m0 m1) = maskedSum x0 x1 w0 w1 m0 m1 :=
  funext fun j => entry_stacked x0 x1 w0 w1 m0 m1 (j 0) (j 1)

/-- What the body stores at `(p, q)` from blocks that are rows `r` of the batches and the whole weight is the
    entry at `(r, q)`. -/
theorem pay_block (x0 x1 : FVec Ideal S524288x128 .f32) (Wf : FVec Ideal S256x128 .bf16)
    (a b : FVec Ideal S8192x128 .f32) (W : FVec Ideal S256x128 .bf16) (p : Fin 8192) (q : Fin 128) (r : Fin 524288)
    (ha : ∀ k : Fin 128, a (ix2 p k) = x0 (ix2 r k)) (hb : ∀ k : Fin 128, b (ix2 p k) = x1 (ix2 r k))
    (hW : ∀ k : Fin 256, W (ix2 k q) = Wf (ix2 k q)) :
    k0_pay1 (F := Ideal) a b W (ix2 p q) = entry x0 x1 Wf r q := by
  rw [Body.pay_entry]
  unfold entry
  simp only [ha, hb, hW]

/-! ## Every point writes its block of that function -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 64 points: the two batches' blocks move with the result's along the
    rows and stay at lane block 0; the weight's block is always the whole matrix. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 63 :=
  (by decide +kernel : ∀ t : Fin grid0.N, _)

/-- Every row block of the result is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- What point `t` writes back is block `t` of `againstWeight` of the arrays as the region finds them. -/
theorem flushed_eq (c : Dev nD) (t : Fin cfg0.N) :
    (dats m 0 c).flushed 3 t = ((cfg0.win 3).blk t).view.read (Elt Ideal)
      (againstWeight (V m c main_arg0) (V m c main_arg1) (V m c main_call0_v5)) := by
  rw [flushed3]
  unfold out0_3
  rw [View.canon_unit_zero zero_offsets]
  simp only [View.ld_unit_zero (S := S8192x128) zero_offsets, View.ld_unit_zero (S := S256x128) zero_offsets]
  obtain ⟨e0, e1, e2, e3, e4, e5, e6, e7⟩ := idx_facts t
  funext j
  obtain ⟨p, q, rfl⟩ : ∃ (p : Fin 8192) (q : Fin 128), j = ix2 p q := ⟨j 0, j 1, eq_ix2 j⟩
  have hr : win0_3.index t (0 : Fin 2) * 8192 + p.val < 524288 := by have := p.isLt; omega
  have hemb : ((cfg0.win 3).blk t).view.emb (ix2 p q) = ix2 (⟨win0_3.index t (0 : Fin 2) * 8192 + p.val, hr⟩ : Fin 524288) q := by
    funext a; apply Fin.ext
    match a with
    | ⟨0, _⟩ => show win0_3.index t (0 : Fin 2) * 8192 + 1 * p.val = win0_3.index t (0 : Fin 2) * 8192 + p.val; omega
    | ⟨1, _⟩ => show win0_3.index t (1 : Fin 2) * 128 + 1 * q.val = q.val; omega
  show k0_pay1 (F := Ideal) (iblk m c 0 t) (iblk m c 1 t) (iblk m c 2 t) (ix2 p q)
    = againstWeight (V m c main_arg0) (V m c main_arg1) (V m c main_call0_v5) (((cfg0.win 3).blk t).view.emb (ix2 p q))
  rw [hemb]
  refine pay_block (V m c main_arg0) (V m c main_arg1) (V m c main_call0_v5) (iblk m c 0 t) (iblk m c 1 t) (iblk m c 2 t) p q
    ⟨win0_3.index t (0 : Fin 2) * 8192 + p.val, hr⟩ (fun k => ?_) (fun k => ?_) (fun k => ?_)
  · show V m c main_arg0 (((cfg0.win 0).blk t).view.emb (ix2 p k)) = _
    refine congrArg (V m c main_arg0) (funext fun a => Fin.ext ?_)
    match a with
    | ⟨0, _⟩ => show win0_0.index t (0 : Fin 2) * 8192 + 1 * p.val = win0_3.index t (0 : Fin 2) * 8192 + p.val; omega
    | ⟨1, _⟩ => show win0_0.index t (1 : Fin 2) * 128 + 1 * k.val = k.val; omega
  · show V m c main_arg1 (((cfg0.win 1).blk t).view.emb (ix2 p k)) = _
    refine congrArg (V m c main_arg1) (funext fun a => Fin.ext ?_)
    match a with
    | ⟨0, _⟩ => show win0_1.index t (0 : Fin 2) * 8192 + 1 * p.val = win0_3.index t (0 : Fin 2) * 8192 + p.val; omega
    | ⟨1, _⟩ => show win0_1.index t (1 : Fin 2) * 128 + 1 * k.val = k.val; omega
  · show V m c main_call0_v5 (((cfg0.win 2).blk t).view.emb (ix2 k q)) = _
    refine congrArg (V m c main_call0_v5) (funext fun a => Fin.ext ?_)
    match a with
    | ⟨0, _⟩ => show win0_2.index t (0 : Fin 2) * 256 + 1 * k.val = k.val; omega
    | ⟨1, _⟩ => show win0_2.index t (1 : Fin 2) * 128 + 1 * q.val = q.val; omega

/-! ## The blocks tile the result -/

/-- An index of the result is in point `t`'s block iff each coordinate is in the block's range on its axis. -/
theorem mem_blk (t : Fin cfg0.N) (i : S524288x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v0).slice (win0_3.rect t)).set ↔ _
  rw [View.set_slice_whole, Rect.mem_set_unit]
  exact Iff.rfl

/-- Row `r` of the result lies in the block of the point whose row-block index is `r / 8192`. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-! ## The array after the run -/

/-- The result array after the run, from the arrays as the region finds them. -/
theorem final_entry (c : Dev nD) :
    (dats m 0 c).arrAt 3 cfg0.N = againstWeight (V m c main_arg0) (V m c main_arg1) (V m c main_call0_v5) :=
  (dats m 0 c).arrAt_eq_of_cover 3 _ (fun t _ => flushed_eq m c t) cover

/-- The result array after the run is the specification of the six arguments as launched. -/
theorem final (c : Dev nD) :
    (dats m 0 c).arrAt 3 cfg0.N
      = maskedSum (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [final_entry, V_main_arg0, V_main_arg1, Weights.V_weight]
  exact againstWeight_stacked _ _ _ _ _ _

/-- The kernel's run, with the result named: every weakly fair execution terminates with the result array at the
    specification of the arguments and the arguments unchanged. -/
theorem run : θ_run defs (onTc (τ := τ) (main (F := Ideal))) ⟨m, fun _ => 0, ρ⟩ fun r => ∀ c : Dev nD,
      r.2.mem ((c : Thread nD τ).loc main_v0)
        = maskedSum (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  Two masked linear maps, summed: a Pallas kernel against its jnp reference, on the extended reals.

  Inputs: two batches of rows `x0, x1 : [524288, 128]`, two weight matrices `w0, w1 : [128, 128]` stored output-major,
  and their 0/1 connectivity masks `m0, m1 : [128, 128]`. Both programs compute

      out[b, o] = ∑ i < 128, x0[b, i] · (w0[o, i] · m0[o, i])  +  ∑ i < 128, x1[b, i] · (w1[o, i] · m1[o, i]).

  The reference does it literally: two masked weights, two contractions over the input axis, one addition.
  The kernel first stacks the transposed masked weights into one `256 × 128` matrix `W` (rows `0 … 127` are
  `(w0 · m0)ᵀ`, rows `128 … 255` are `(w1 · m1)ᵀ`), then, for each of 64 blocks of 8192 rows, sets the blocks of
  `x0` and `x1` side by side as one `8192 × 256` operand and multiplies it with `W` in a single product. The
  contraction over 256 positions splits at 128 into the two contractions of the reference — a regrouping of a finite
  sum, valid for every extended real, so the finiteness of the inputs is never used. Narrowing to bf16 on the way
  into the product is the identity on ideal values, and the ideal pass rewrote nothing, so the kernel's
  idealization is its own text.

  The modules: `Spec` states the function; `RefSide` reads the reference's run as it; `Body` reads the kernel body's
  stored value at an entry; `Weights` reads the stacked weight the region finds; `Whole` carries the body's blocks to the
  whole result array and names the kernel's run. Below, the five conjuncts are assembled.
-/
import proofs.«132535_j87041807221059_2_alg».proof.Defs
import proofs.«132535_j87041807221059_2_alg».proof.Proof.Gen.Kernel
import proofs.«132535_j87041807221059_2_alg».proof.Proof.Gen.Kernel.Skeleton
import proofs.«132535_j87041807221059_2_alg».proof.Proof.Gen.Kernel.Launch
import proofs.«132535_j87041807221059_2_alg».proof.Proof.Gen.Kernel.Points
import proofs.«132535_j87041807221059_2_alg».proof.Proof.Gen.Kernel.Frame
import proofs.«132535_j87041807221059_2_alg».proof.Proof.Gen.KernelIdeal
import proofs.«132535_j87041807221059_2_alg».proof.Proof.Gen.KernelIdeal.Skeleton
import proofs.«132535_j87041807221059_2_alg».proof.Proof.Gen.KernelIdeal.Launch
import proofs.«132535_j87041807221059_2_alg».proof.Proof.Gen.KernelIdeal.Points
import proofs.«132535_j87041807221059_2_alg».proof.Proof.Gen.KernelIdeal.Frame
import proofs.«132535_j87041807221059_2_alg».proof.Proof.Gen.ReferenceIdeal
import proofs.«132535_j87041807221059_2_alg».proof.Proof.Gen.Pre_finite_inputs
import proofs.«132535_j87041807221059_2_alg».proof.Proof.Gen.KernelIdeal.Value
import proofs.«132535_j87041807221059_2_alg».proof.Proof.Gen.ReferenceIdeal.Run
import proofs.«132535_j87041807221059_2_alg».proof.Proof.Gen.ReferenceIdeal.Read
import proofs.«132535_j87041807221059_2_alg».proof.Proof.RefSide
import proofs.«132535_j87041807221059_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is five host operations; its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments both programs end with the result array at the sum of the two masked
    linear maps of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
